-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128x256 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S256x128 .f32) (main_arg3 : FVec F S256x128 .f32) (main_arg4 : FVec F S256 .f32) (main_arg5 : FVec F S128x256 .f32) (main_arg6 : FVec F S128x256 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 72
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256x128, .f32⟩
  | .hbm, ⟨4, _⟩ => ⟨S256, .f32⟩
  | .hbm, ⟨5, _⟩ => ⟨S128x256, .f32⟩
  | .hbm, ⟨6, _⟩ => ⟨S128x256, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S128x256, .f32⟩
  | .hbm, ⟨39, _⟩ => ⟨S128x256, .f32⟩
  | .hbm, ⟨40, _⟩ => ⟨S1x256, .f32⟩
  | .hbm, ⟨41, _⟩ => ⟨S50000x256, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S50000x256, .f32⟩
  | .hbm, ⟨53, _⟩ => ⟨S800000x1, .i32⟩
  | .hbm, ⟨54, _⟩ => ⟨S50000x256, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x256, .f32⟩
  | .hbm, ⟨67, _⟩ => ⟨S50000x256, .f32⟩
  | .hbm, ⟨68, _⟩ => ⟨S256x128, .f32⟩
  | .hbm, ⟨69, _⟩ => ⟨S256x128, .f32⟩
  | .hbm, ⟨70, _⟩ => ⟨S1x128, .f32⟩
  | .hbm, ⟨71, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_call1_v0 : Ref sig .tc := ⟨.hbm, 62, rfl⟩
abbrev main_call1_v1 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256x128, .f32⟩
  | .hbm, ⟨4, _⟩ => ⟨S256, .f32⟩
  | .hbm, ⟨5, _⟩ => ⟨S128x256, .f32⟩
  | .hbm, ⟨6, _⟩ => ⟨S128x256, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S_, .f32⟩
  | .hbm, ⟨45, _⟩ => ⟨S50000x256, .f32⟩
  | .hbm, ⟨46, _⟩ => ⟨S50000x256, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x256, .f32⟩
  | .hbm, ⟨56, _⟩ => ⟨S_, .f32⟩
  | .hbm, ⟨57, _⟩ => ⟨S50000x256, .f32⟩
  | .hbm, ⟨58, _⟩ => ⟨S800000x1, .i32⟩
  | .hbm, ⟨59, _⟩ => ⟨S50000x256, .f32⟩
  | .hbm, ⟨60, _⟩ => ⟨S_, .f32⟩
  | .hbm, ⟨61, _⟩ => ⟨S800000, .f32⟩
  | .hbm, ⟨62, _⟩ => ⟨S_, .f32⟩
  | .hbm, ⟨63, _⟩ => ⟨S50000, .f32⟩
  | .hbm, ⟨64, _⟩ => ⟨S800000x1, .i32⟩
  | .hbm, ⟨65, _⟩ => ⟨S50000, .f32⟩
  | .hbm, ⟨66, _⟩ => ⟨S_, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_call2_v0 : Ref sig .tc := ⟨.hbm, 67, rfl⟩
abbrev main_call2_v1 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call3_cst : Ref sig .tc := ⟨.hbm, 79, rfl⟩
abbrev main_call3_v0 : Ref sig .tc := ⟨.hbm, 80, rfl⟩
abbrev main_v53 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S256x128_S50000x256_1_1_0_0_n_n_wf : DotDims.WF S50000x128 S256x128 S50000x256 [1] [1] [0] [0] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S128x256_S50000x128_1_1_0_0_n_n_wf : DotDims.WF S50000x256 S128x256 S50000x128 [1] [1] [0] [0] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S256x128_S50000x256_1_1_0_0_n_n : DotDims S50000x128 S256x128 S50000x256 where
  lhsContracting := [1]
  rhsContracting := [1]
  lhsNonContracting := [0]
  rhsNonContracting := [0]
  lhsBatch := []
  rhsBatch := []
  wf := dot_S50000x128_S256x128_S50000x256_1_1_0_0_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S128x256_S50000x128_1_1_0_0_n_n : DotDims S50000x256 S128x256 S50000x128 where
  lhsContracting := [1]
  rhsContracting := [1]
  lhsNonContracting := [0]
  rhsNonContracting := [0]
  lhsBatch := []
  rhsBatch := []
  wf := dot_S50000x256_S128x256_S50000x128_1_1_0_0_n_n_wf

class Facts : Prop extends Facts₀ where

variable [Facts]
-- ==== Proof.Idx.lean ====
/-
  Rows and columns of an index of a two-axis array, as numbers below the literal extents.
-/
import Idealize.ShloMosaic.Lib.ValueIdx

namespace Cert.Sage

open Idealize.ShloMosaic Idealize.ShloMosaic.ValueIdx

/-- The row of an index of a two-axis array. -/
abbrev row {n0 n1 : Nat} (i : (⟨2, ![n0, n1]⟩ : Shape).Idx) : Fin n0 := ⟨(i 0).val, idx2_lt0 i⟩
/-- Its column. -/
abbrev col {n0 n1 : Nat} (i : (⟨2, ![n0, n1]⟩ : Shape).Idx) : Fin n1 := ⟨(i 1).val, idx2_lt1 i⟩

end Cert.Sage
-- ==== Proof.Spec.lean ====
/-
  The reference network as a composition of named pieces, and its two dense layers read at one element.

  The reference computes, for node features `x`, an edge list `e` (row 0 the sources, row 1 the destinations) and the
  two layers' parameters,
      h   = relu(x · W₂ᵀ + mean(x) · W₃ᵀ + b₄),        out = relu(h · W₅ᵀ + mean(h) · W₆ᵀ + b₇),
  where mean(y)[v] is the sum of y[u] over the edges (u, v) divided by max(1, number of such edges): a gather of the
  source rows, a scatter-add onto the destination rows and a division by the clipped edge count. The aggregation is
  named here as one function of the array it averages (`mean1`, `mean2`) and is never opened: both programs apply it,
  operation for operation. The dense part of a layer (`dense1`, `dense2`) is read at an element at the ideal instance:
      dense(X, A, W, W', b)[r, q] = max((∑ₖ X[r,k]·W[q,k]) + (∑ₖ A[r,k]·W'[q,k]) + b[q], 0).
-/
import proofs.«164540_j72129680769620_1_alg».proof.Proof.Gen.ReferenceIdeal.Read
import proofs.«164540_j72129680769620_1_alg».proof.Proof.Idx

noncomputable section

namespace Cert.ReferenceIdeal.Sage

open Cert.ReferenceIdeal Cert.ReferenceIdeal.Gen Idealize.ShloMosaic Idealize.ShloMosaic.TcCoe Idealize.SL.Sem Idealize.ShloMosaic.ValueIdx
open Cert.Sage (row col)

section AnyInstance
variable {F : FTy → Type} [FloatOps F]

/-- The edges' source nodes: row 0 of the edge list. -/
def src (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000
/-- The edges' destination nodes: row 1 of the edge list. -/
def dst (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000
/-- The source nodes as the gather takes them: a negative index counted from the end, as one column. -/
def wrapped (s : (⟨S800000, .i32⟩ : BufTy).Contents (Elt F)) : (⟨S800000x1, .i32⟩ : BufTy).Contents (Elt F) :=
  broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)
/-- The destination nodes as the scatters take them: one column. -/
def column (d : (⟨S800000, .i32⟩ : BufTy).Contents (Elt F)) : (⟨S800000x1, .i32⟩ : BufTy).Contents (Elt F) :=
  broadcastInDim S800000x1 ![0] bcast_S800000_S800000x1_0 d
/-- The number of edges into each node, at least one. -/
def degree (d : (⟨S800000, .i32⟩ : BufTy).Contents (Elt F)) : (⟨S50000, .f32⟩ : BufTy).Contents (Elt F) :=
  maximumf (broadcastInDim S50000 ![] bcast_S_S50000 (id (constant (F := F) S_ .f32 0x3F800000#32))) (Host.scatterAdd scatter_S50000_S800000x1_S800000_n_0_0_1 (broadcastInDim S50000 ![] bcast_S_S50000 (constant (F := F) S_ .f32 0x00000000#32)) (column d) (broadcastInDim S800000 ![] bcast_S_S800000 (constant (F := F) S_ .f32 0x3F800000#32)))
/-- The mean over incoming edges of a 128-column array. -/
def mean1 (x : (⟨S50000x128, .f32⟩ : BufTy).Contents (Elt F)) (s d : (⟨S800000, .i32⟩ : BufTy).Contents (Elt F)) : (⟨S50000x128, .f32⟩ : BufTy).Contents (Elt F) :=
  Host.divf (Host.scatterAdd scatter_S50000x128_S800000x1_S800000x128_1_0_0_1 (broadcastInDim S50000x128 ![] bcast_S_S50000x128 (constant (F := F) S_ .f32 0x00000000#32)) (column d) (Host.gather gather_S50000x128_S800000x1_S800000x128_1_0_n_n_0_1_1128 x (wrapped s))) (broadcastInDim S50000x128 ![0, 1] bcast_S50000x1_S50000x128_0_1 (broadcastInDim S50000x1 ![0] bcast_S50000_S50000x1_0 (degree d)))
/-- The mean over incoming edges of a 256-column array. -/
def mean2 (h : (⟨S50000x256, .f32⟩ : BufTy).Contents (Elt F)) (s d : (⟨S800000, .i32⟩ : BufTy).Contents (Elt F)) : (⟨S50000x256, .f32⟩ : BufTy).Contents (Elt F) :=
  Host.divf (Host.scatterAdd scatter_S50000x256_S800000x1_S800000x256_1_0_0_1 (broadcastInDim S50000x256 ![] bcast_S_S50000x256 (constant (F := F) S_ .f32 0x00000000#32)) (column d) (Host.gather gather_S50000x256_S800000x1_S800000x256_1_0_n_n_0_1_1256 h (wrapped s))) (broadcastInDim S50000x256 ![0, 1] bcast_S50000x1_S50000x256_0_1 (broadcastInDim S50000x1 ![0] bcast_S50000_S50000x1_0 (degree d)))
/-- The dense part of the first layer: relu(X·Wᵀ + A·W'ᵀ + b). -/
def dense1 (X A : (⟨S50000x128, .f32⟩ : BufTy).Contents (Elt F)) (W W' : (⟨S256x128, .f32⟩ : BufTy).Contents (Elt F)) (b : (⟨S256, .f32⟩ : BufTy).Contents (Elt F)) : (⟨S50000x256, .f32⟩ : BufTy).Contents (Elt F) :=
  maximumf (addf (addf (Host.dotGeneral dot_S50000x128_S256x128_S50000x256_1_1_0_0_n_n none X W) (Host.dotGeneral dot_S50000x128_S256x128_S50000x256_1_1_0_0_n_n none A W')) (broadcastInDim S50000x256 ![0, 1] bcast_S1x256_S50000x256_0_1 (broadcastInDim S1x256 ![1] bcast_S256_S1x256_1 b))) (broadcastInDim S50000x256 ![] bcast_S_S50000x256 (constant (F := F) S_ .f32 0x00000000#32))
/-- The dense part of the second layer. -/
def dense2 (H A : (⟨S50000x256, .f32⟩ : BufTy).Contents (Elt F)) (W W' : (⟨S128x256, .f32⟩ : BufTy).Contents (Elt F)) (b : (⟨S128, .f32⟩ : BufTy).Contents (Elt F)) : (⟨S50000x128, .f32⟩ : BufTy).Contents (Elt F) :=
  maximumf (addf (addf (Host.dotGeneral dot_S50000x256_S128x256_S50000x128_1_1_0_0_n_n none H W) (Host.dotGeneral dot_S50000x256_S128x256_S50000x128_1_1_0_0_n_n none A W')) (broadcastInDim S50000x128 ![0, 1] bcast_S1x128_S50000x128_0_1 (broadcastInDim S1x128 ![1] bcast_S128_S1x128_1 b))) (broadcastInDim S50000x128 ![] bcast_S_S50000x128 (constant (F := F) S_ .f32 0x00000000#32))
/-- The first layer. -/
def layer1 (x : (⟨S50000x128, .f32⟩ : BufTy).Contents (Elt F)) (e : (⟨S2x800000, .i32⟩ : BufTy).Contents (Elt F)) (W2 W3 : (⟨S256x128, .f32⟩ : BufTy).Contents (Elt F)) (b4 : (⟨S256, .f32⟩ : BufTy).Contents (Elt F)) : (⟨S50000x256, .f32⟩ : BufTy).Contents (Elt F) :=
  dense1 x (mean1 x (src e) (dst e)) W2 W3 b4
/-- The second layer, of the first layer's output. -/
def layer2 (h : (⟨S50000x256, .f32⟩ : BufTy).Contents (Elt F)) (e : (⟨S2x800000, .i32⟩ : BufTy).Contents (Elt F)) (W5 W6 : (⟨S128x256, .f32⟩ : BufTy).Contents (Elt F)) (b7 : (⟨S128, .f32⟩ : BufTy).Contents (Elt F)) : (⟨S50000x128, .f32⟩ : BufTy).Contents (Elt F) :=
  dense2 h (mean2 h (src e) (dst e)) W5 W6 b7

/-- THE REFERENCE'S RESULT is the second layer of the first layer of the arguments. -/
theorem result_eq (m : (ℓ : Loc nD τ sig) → Buf (Elt F) ℓ) (c : Dev nD) :
    Cert.ReferenceIdeal.Value.res_main_v53 m c
      = layer2 (layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg1)) (m ((c.tc : Thread nD τ).loc main_arg5)) (m ((c.tc : Thread nD τ).loc main_arg6)) (m ((c.tc : Thread nD τ).loc main_arg7)) := by
  unfold Cert.ReferenceIdeal.Value.res_main_v53 layer2 layer1 dense2 dense1 mean2 mean1 degree column wrapped src dst
  rfl

end AnyInstance

/-! ## The dense layers at an element, at the ideal instance -/

/-- The first layer's product of a [50000,128] array with a [256,128] matrix over their second axes, at an element. -/
theorem dot1_apply (X : FVec Ideal S50000x128 .f32) (W : FVec Ideal S256x128 .f32) (i : S50000x256.Idx) :
    Host.dotGeneral (F := Ideal) dot_S50000x128_S256x128_S50000x256_1_1_0_0_n_n none X W i = ∑ k : Fin 128, X (ix2 (row i) k) * W (ix2 (col i) k) := by
  refine (Cert.ReferenceIdeal.Read.val_main_v22_apply X W i).trans (Finset.sum_congr rfl fun k _ => ?_)
  have el : Cert.ReferenceIdeal.Read.lidx_main_v22 i k = ix2 (row i) k := funext fun a => by match a with | ⟨0, _⟩ => rfl | ⟨1, _⟩ => rfl
  have er : Cert.ReferenceIdeal.Read.ridx_main_v22 i k = ix2 (col i) k := funext fun a => by match a with | ⟨0, _⟩ => rfl | ⟨1, _⟩ => rfl
  rw [el, er]

/-- The dimension numbers of the second layer's products: [50000,256] × [128,256], contracting both second axes. -/
abbrev D2 : DotDims S50000x256 S128x256 S50000x128 := dot_S50000x256_S128x256_S50000x128_1_1_0_0_n_n

/-- The second layer's product of a [50000,256] array with a [128,256] matrix over their second axes, at an element. -/
theorem dot2_apply (H : FVec Ideal S50000x256 .f32) (W : FVec Ideal S128x256 .f32) (i : S50000x128.Idx) :
    Host.dotGeneral (F := Ideal) D2 none H W i = ∑ k : Fin 256, H (ix2 (row i) k) * W (ix2 (col i) k) := by
  simp only [Host.dotGeneral]
  rw [Ideal.dotGeneral_apply, ← Equiv.sum_comp (contrEquiv1 D2 256 rfl rfl).symm]
  refine Finset.sum_congr rfl fun k _ => ?_
  have hk := contrEquiv1_symm_val D2 256 rfl rfl k
  have el : D2.lhsIdx i ((contrEquiv1 D2 256 rfl rfl).symm k) = ix2 (row i) k := funext fun a => Fin.ext (by
    match a with
    | ⟨0, _⟩ => exact Cert.ReferenceIdeal.Read.lhs_main_v47_0 _ _
    | ⟨1, _⟩ => exact (Cert.ReferenceIdeal.Read.lhs_main_v47_1 _ _).trans hk)
  have er : D2.rhsIdx i ((contrEquiv1 D2 256 rfl rfl).symm k) = ix2 (col i) k := funext fun a => Fin.ext (by
    match a with
    | ⟨0, _⟩ => exact Cert.ReferenceIdeal.Read.rhs_main_v47_0 _ _
    | ⟨1, _⟩ => exact (Cert.ReferenceIdeal.Read.rhs_main_v47_1 _ _).trans hk)
  rw [el, er]

/-- The first layer's bias, broadcast over the rows, at an element: the bias entry of the element's column. -/
theorem bias1_apply (b : (⟨S256, .f32⟩ : BufTy).Contents (Elt Ideal)) (i : S50000x256.Idx) :
    broadcastInDim S50000x256 ![0, 1] bcast_S1x256_S50000x256_0_1 (broadcastInDim S1x256 ![1] bcast_S256_S1x256_1 b) i = b (ix1 (col i)) := by
  refine ((Cert.ReferenceIdeal.Read.val_main_v26_apply b i).trans (Cert.ReferenceIdeal.Read.val_main_v25_apply b _)).trans ?_
  exact congrArg b (funext fun a => by match a with | ⟨0, _⟩ => rfl)
/-- The second layer's bias likewise. -/
theorem bias2_apply (b : (⟨S128, .f32⟩ : BufTy).Contents (Elt Ideal)) (i : S50000x128.Idx) :
    broadcastInDim S50000x128 ![0, 1] bcast_S1x128_S50000x128_0_1 (broadcastInDim S1x128 ![1] bcast_S128_S1x128_1 b) i = b (ix1 (col i)) := by
  refine ((Cert.ReferenceIdeal.Read.val_main_v51_apply b i).trans (Cert.ReferenceIdeal.Read.val_main_v50_apply b _)).trans ?_
  exact congrArg b (funext fun a => by match a with | ⟨0, _⟩ => rfl)

/-- The zero the rectifier compares with, broadcast, at an element. -/
theorem zero1_apply (i : S50000x256.Idx) :
    broadcastInDim S50000x256 ![] bcast_S_S50000x256 (constant (F := Ideal) S_ .f32 0x00000000#32) i = Ideal.ofBits .f32 0x00000000#32 :=
  (Cert.ReferenceIdeal.Read.val_main_call1_v0_apply (F := Ideal) i).trans rfl
theorem zero2_apply (i : S50000x128.Idx) :
    broadcastInDim S50000x128 ![] bcast_S_S50000x128 (constant (F := Ideal) S_ .f32 0x00000000#32) i = Ideal.ofBits .f32 0x00000000#32 :=
  (Cert.ReferenceIdeal.Read.val_main_call3_v0_apply (F := Ideal) i).trans rfl

/-- THE FIRST DENSE LAYER at element (r, q). -/
theorem dense1_apply (X A : (⟨S50000x128, .f32⟩ : BufTy).Contents (Elt Ideal)) (W W' : (⟨S256x128, .f32⟩ : BufTy).Contents (Elt Ideal)) (b : (⟨S256, .f32⟩ : BufTy).Contents (Elt Ideal)) (i : S50000x256.Idx) :
    dense1 (F := Ideal) X A W W' b i
      = max ((∑ k : Fin 128, X (ix2 (row i) k) * W (ix2 (col i) k)) + (∑ k : Fin 128, A (ix2 (row i) k) * W' (ix2 (col i) k)) + b (ix1 (col i)))
          (Ideal.ofBits .f32 0x00000000#32) := by
  unfold dense1
  rw [maximumf_apply, addf_apply, addf_apply, dot1_apply, dot1_apply, bias1_apply, zero1_apply]

/-- THE SECOND DENSE LAYER at element (r, q). -/
theorem dense2_apply (H A : (⟨S50000x256, .f32⟩ : BufTy).Contents (Elt Ideal)) (W W' : (⟨S128x256, .f32⟩ : BufTy).Contents (Elt Ideal)) (b : (⟨S128, .f32⟩ : BufTy).Contents (Elt Ideal)) (i : S50000x128.Idx) :
    dense2 (F := Ideal) H A W W' b i
      = max ((∑ k : Fin 256, H (ix2 (row i) k) * W (ix2 (col i) k)) + (∑ k : Fin 256, A (ix2 (row i) k) * W' (ix2 (col i) k)) + b (ix1 (col i)))
          (Ideal.ofBits .f32 0x00000000#32) := by
  unfold dense2
  rw [maximumf_apply, addf_apply, addf_apply, dot2_apply, dot2_apply, bias2_apply, zero2_apply]

end Cert.ReferenceIdeal.Sage

end
-- ==== Proof.Whole.lean ====
/-
  The kernel's program run from launch to return, with its result array NAMED.

  The program is eight segments: three stretches of host operations, the first layer's region, three more stretches, the
  second layer's region. Run in order from the launch memory they leave every buffer of the TensorCore at the contents
  the last boundary names; read at the result buffer that is what the second region's write-backs left, and at each
  argument it is the launch contents. Every weakly fair execution terminates there without a fault.
-/
import proofs.«164540_j72129680769620_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN: every weakly fair execution of the program terminates, nothing faulting, with the result array at what
    the second region's write-backs leave (from the buffer contents at that region's entry) and the arguments as
    launched. -/
theorem run : θ_run defs (onTc (τ := τ) (main (F := F))) ⟨m, fun _ => 0, ρ⟩ (fun r => ∀ c : Dev nD,
      r.2.mem ((c.tc : Thread nD τ).loc main_v47) = (dat1 (V7 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v47 (by decide))).trans (W8_arr m ρ c 5),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Whole

end
-- ==== Proof.Layer0Body.lean ====
/-
  The arithmetic of the first layer's kernel body, read at one element.

  The body takes a block `x` of 2000 rows of node features, the matching block `a` of aggregated neighbour features,
  the two weight matrices already transposed (`w`, `v` : [128, 256]) and the bias as one row (`b` : [1, 256]), and
  stores  max(x·w + a·v + b, 0).  At the ideal instance the roundings to bf16 in front of the two matrix products are
  the identity and a matrix product into the zero accumulator is the plain sum over the contracted axis, so element
  (p, q) of the stored block is
      max((∑ₖ x[p,k]·w[k,q]) + (∑ₖ a[p,k]·v[k,q]) + b[0,q], 0).
-/
import proofs.«164540_j72129680769620_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer0

open Cert.KernelIdeal Cert.KernelIdeal.Gen Idealize.ShloMosaic Idealize.ShloMosaic.ValueIdx

/-- The dimension numbers of the body's two matrix products: [2000,128] × [128,256], contracting the 128. -/
abbrev D0 : DotDims S2000x128 S128x256 S2000x256 := dot_S2000x128_S128x256_S2000x256_1_0_0_1_n_n

theorem lhs_row (i : S2000x256.Idx) (r : D0.contr.Idx) : (D0.lhsIdx i r 0).val = (i 0).val := by
  unfold DotDims.lhsIdx
  rw [dif_neg (show ¬(0 : Fin S2000x128.rank) ∈ D0.lhsBatch by decide), dif_pos (show (0 : Fin S2000x128.rank) ∈ D0.lhsNonContracting by decide)]
  rfl
theorem lhs_contr (i : S2000x256.Idx) (r : D0.contr.Idx) : (D0.lhsIdx i r 1).val = (r ⟨0, by decide⟩).val :=
  D0.lhsIdx_val_of_single rfl i r
theorem rhs_contr (i : S2000x256.Idx) (r : D0.contr.Idx) : (D0.rhsIdx i r 0).val = (r ⟨0, by decide⟩).val :=
  D0.rhsIdx_val_of_single rfl i r
theorem rhs_col (i : S2000x256.Idx) (r : D0.contr.Idx) : (D0.rhsIdx i r 1).val = (i 1).val := by
  unfold DotDims.rhsIdx
  rw [dif_neg (show ¬(1 : Fin S128x256.rank) ∈ D0.rhsBatch by decide), dif_pos (show (1 : Fin S128x256.rank) ∈ D0.rhsNonContracting by decide)]
  rfl

/-- A matrix product of the body into the zero accumulator, at element (p, q): the sum over the contracted axis. -/
theorem matmul_apply (x : FVec Ideal S2000x128 .bf16) (w : FVec Ideal S128x256 .bf16) (p : Fin 2000) (q : Fin 256) :
    matmul D0 none x w (constant S2000x256 .f32 0x00000000#32) (ix2 p q) = ∑ k : Fin 128, x (ix2 p k) * w (ix2 k q) := by
  simp only [matmul]
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact lhs_row _ _
    | ⟨1, _⟩ => exact (lhs_contr _ _).trans hk)
  have er : D0.rhsIdx (ix2 p q) ((contrEquiv1 D0 128 rfl rfl).symm k) = ix2 k q := funext fun a => Fin.ext (by
    match a with
    | ⟨0, _⟩ => exact (rhs_contr _ _).trans hk
    | ⟨1, _⟩ => exact rhs_col _ _)
  rw [el, er]

/-- The bias row broadcast down the 2000 rows, at element (p, q): the row's entry q. -/
theorem bias_apply (b : FVec Ideal S1x256 .f32) (p : Fin 2000) (q : Fin 256) :
    broadcastTo S2000x256 b broadcasts_S1x256_S2000x256 (ix2 p q) = b (ix2 (0 : Fin 1) q) :=
  broadcastTo_apply b broadcasts_S1x256_S2000x256 (ix2 p q) (ix2 (0 : Fin 1) q) (fun a => by
    match a with
    | ⟨0, _⟩ => show 0 = if (1 : Nat) = 1 then 0 else _; rw [if_pos rfl]
    | ⟨1, _⟩ => show q.val = if (256 : Nat) = 1 then 0 else q.val; rw [if_neg (by decide)])

/-- THE STORED BLOCK at element (p, q). -/
theorem pay_apply (x a : Vec Ideal S2000x128 .f32) (w v : Vec Ideal S128x256 .f32) (b : Vec Ideal S1x256 .f32)
    (p : Fin 2000) (q : Fin 256) :
    k0_pay1 (F := Ideal) x a w v b (ix2 p q)
      = max ((∑ k : Fin 128, x (ix2 p k) * w (ix2 k q)) + (∑ k : Fin 128, a (ix2 p k) * v (ix2 k q)) + b (ix2 (0 : Fin 1) q))
          (Ideal.ofBits .f32 0x00000000#32) := by
  unfold k0_pay1
  simp only [shapeCast_self]
  rw [maximumf_apply, addf_apply, addf_apply, matmul_apply, matmul_apply, bias_apply]
  rfl

end Cert.KernelIdeal.Layer0

end
-- ==== Proof.Layer0Blocks.lean ====
/-
  From the first layer's blocks to its whole output array.

  The layer's kernel runs over 25 grid points; point `t` reads rows 2000·t … 2000·t + 1999 of the node features and of
  the aggregated neighbour features, the two transposed weight matrices and the bias row whole, and writes rows
  2000·t … 2000·t + 1999 of the output. So what point `t` writes back is block `t` of ONE function of the arrays the
  region finds (`layerArr`), the 25 blocks cover the output, and the output array after the region is that function:
      out[r, q] = max((∑ₖ X[r,k]·W[k,q]) + (∑ₖ A[r,k]·V[k,q]) + B[0,q], 0).
  Everything is stated for ANY contents `V` of the TensorCore's buffers at the region's entry.
-/
import proofs.«164540_j72129680769620_1_alg».proof.Proof.Gen.KernelIdeal.Frame
import proofs.«164540_j72129680769620_1_alg».proof.Proof.Layer0Body
import proofs.«164540_j72129680769620_1_alg».proof.Proof.Idx

noncomputable section

namespace Cert.KernelIdeal.Layer0

open Cert.KernelIdeal Cert.KernelIdeal.Gen Idealize.ShloMosaic Idealize.ShloMosaic.TcCoe Idealize.SL.Sem Idealize.ShloMosaic.ValueIdx
open Idealize.ShloMosaic.Pipeline (Dat)
open Cert.Sage (row col)

/-- The layer as one function of whole arrays: features `X`, aggregated features `A`, transposed weights `W`, `V`,
    bias row `B`. -/
def layerArr (X A : S50000x128.Idx → EReal) (W V : S128x256.Idx → EReal) (B : S1x256.Idx → EReal) : S50000x256.Idx → EReal :=
  fun i => max ((∑ k : Fin 128, X (ix2 (row i) k) * W (ix2 k (col i))) + (∑ k : Fin 128, A (ix2 (row i) k) * V (ix2 k (col i)))
      + B (ix2 (0 : Fin 1) (col i))) (Ideal.ofBits .f32 0x00000000#32)

theorem hz : (![0, 0] : Fin 2 → Nat) = fun _ => 0 := funext fun a => by fin_cases a <;> rfl

/-- The printed index maps over the grid: the three row-blocked windows move with the point, the weights and the
    bias stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

section
variable (V : (c : Dev nD) → (b : Ref sig .tc) → Buf (Elt Ideal) ((c : Thread nD τ).loc b))

/-- Point `t`'s block of the node features is rows 2000·t … of the array. -/
theorem blk_x (c : Dev nD) (t : Fin cfg0.N) (y : S2000x128.Idx) (i : S50000x128.Idx)
    (h0 : (i 0).val = 2000 * t.val + (y 0).val) (h1 : (i 1).val = (y 1).val) :
    (iblk0 V c 0 t : Vec Ideal S2000x128 .f32) y = (V c main_arg0 : S50000x128.Idx → EReal) i := by
  obtain ⟨⟨e0, e1⟩, -⟩ := idx_facts t
  unfold iblk0
  rw [View.read_apply]
  show V c main_arg0 _ = V c main_arg0 _
  refine congrArg _ (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- Point `t`'s block of the aggregated features is the same rows of that array. -/
theorem blk_a (c : Dev nD) (t : Fin cfg0.N) (y : S2000x128.Idx) (i : S50000x128.Idx)
    (h0 : (i 0).val = 2000 * t.val + (y 0).val) (h1 : (i 1).val = (y 1).val) :
    (iblk0 V c 1 t : Vec Ideal S2000x128 .f32) y = (V c main_v21 : S50000x128.Idx → EReal) i := by
  obtain ⟨-, ⟨e0, e1⟩, -⟩ := idx_facts t
  unfold iblk0
  rw [View.read_apply]
  show V c main_v21 _ = V c main_v21 _
  refine congrArg _ (funext fun a => Fin.ext ?_)
  match a with
  | ⟨0, _⟩ => show win0_1.index t (0 : Fin 2) * 2000 + 1 * (y 0).val = (i 0).val; rw [e0, h0]; omega
  | ⟨1, _⟩ => show win0_1.index t (1 : Fin 2) * 128 + 1 * (y 1).val = (i 1).val; rw [e1, h1]; omega

/-- Every point's block of a weight matrix is the matrix. -/
theorem blk_w (c : Dev nD) (t : Fin cfg0.N) (y : S128x256.Idx) :
    (iblk0 V c 2 t : Vec Ideal S128x256 .f32) y = (V c main_v22 : S128x256.Idx → EReal) y := by
  obtain ⟨-, -, ⟨e0, e1⟩, -⟩ := idx_facts t
  unfold iblk0
  rw [View.read_apply]
  show V c main_v22 _ = V c main_v22 _
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 256 + 1 * (y 1).val = (y 1).val; rw [e1]; omega
theorem blk_v (c : Dev nD) (t : Fin cfg0.N) (y : S128x256.Idx) :
    (iblk0 V c 3 t : Vec Ideal S128x256 .f32) y = (V c main_v23 : S128x256.Idx → EReal) y := by
  obtain ⟨-, -, -, ⟨e0, e1⟩, -⟩ := idx_facts t
  unfold iblk0
  rw [View.read_apply]
  show V c main_v23 _ = V c main_v23 _
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega
/-- Every point's block of the bias row is the row. -/
theorem blk_b (c : Dev nD) (t : Fin cfg0.N) (y : S1x256.Idx) :
    (iblk0 V c 4 t : Vec Ideal S1x256 .f32) y = (V c main_v24 : S1x256.Idx → EReal) y := by
  obtain ⟨-, -, -, -, ⟨e0, e1⟩, -⟩ := idx_facts t
  unfold iblk0
  rw [View.read_apply]
  show V c main_v24 _ = V c main_v24 _
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- WHAT POINT `t` WRITES BACK is block `t` of `layerArr` of the arrays the region finds. -/
theorem flushed_eq (c : Dev nD) (t : Fin cfg0.N) :
    (dat0 V c).flushed 5 t = ((cfg0.win 5).blk t).view.read (Elt Ideal)
      (layerArr (V c main_arg0) (V c main_v21) (V c main_v22) (V c main_v23) (V c main_v24)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  obtain ⟨-, -, -, -, -, ⟨e0, e1⟩⟩ := idx_facts t
  funext j
  rw [View.read_apply]
  show k0_pay1 (F := Ideal) (iblk0 V c 0 t) (iblk0 V c 1 t) (iblk0 V c 2 t) (iblk0 V c 3 t) (iblk0 V c 4 t) j = layerArr _ _ _ _ _ (((cfg0.win 5).blk t).view.emb j)
  obtain ⟨p, q, rfl⟩ : ∃ (p : Fin 2000) (q : Fin 256), j = ix2 p q := ⟨j 0, j 1, eq_ix2 j⟩
  have hr : (((cfg0.win 5).blk t).view.emb (ix2 p q) 0).val = 2000 * t.val + p.val := by
    show win0_5.index t (0 : Fin 2) * 2000 + 1 * p.val = _; rw [e0]; omega
  have hc : (((cfg0.win 5).blk t).view.emb (ix2 p q) 1).val = q.val := by
    show win0_5.index t (1 : Fin 2) * 256 + 1 * q.val = _; rw [e1]; omega
  rw [pay_apply]
  unfold layerArr
  have hcol : col (((cfg0.win 5).blk t).view.emb (ix2 p q)) = q := Fin.ext hc
  rw [hcol]
  refine congrArg (fun z => max z _) ?_
  refine congrArg₂ (· + ·) (congrArg₂ (· + ·) ?_ ?_) ?_
  · exact Finset.sum_congr rfl fun k _ => congrArg₂ (· * ·) (blk_x V c t _ _ hr rfl) (blk_w V c t _)
  · exact Finset.sum_congr rfl fun k _ => congrArg₂ (· * ·) (blk_a V c t _ _ hr rfl) (blk_v V c t _)
  · exact blk_b V c t _

/-- An index of the output is in point `t`'s block iff its row is among the block's rows (and its column anywhere). -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v25).slice (win0_5.rect t)).set ↔ _
  rw [View.set_slice_whole, Rect.mem_set_unit]
  exact Iff.rfl

/-- Every index of the output is in the block of the point its row falls to. -/
theorem cover (i : S50000x256.Idx) : ∃ t : Fin cfg0.N, (cfg0.win 5).flush t = true ∧ i ∈ ((cfg0.win 5).blk t).view.set := by
  have hN : cfg0.N = 25 := N_0
  have hi0 : (i 0).val < 50000 := idx2_lt0 i
  have hi1 : (i 1).val < 256 := idx2_lt1 i
  refine ⟨⟨(i 0).val / 2000, by rw [hN]; omega⟩, flush0_5 _, ?_⟩
  rw [mem_blk]
  obtain ⟨-, -, -, -, -, ⟨e0, e1⟩⟩ := idx_facts ⟨(i 0).val / 2000, by rw [hN]; omega⟩
  intro a
  match a with
  | ⟨0, _⟩ => show win0_5.index _ (0 : Fin 2) * 2000 ≤ (i 0).val ∧ (i 0).val < win0_5.index _ (0 : Fin 2) * 2000 + 2000; rw [e0]; show (i 0).val / 2000 * 2000 ≤ _ ∧ _ < (i 0).val / 2000 * 2000 + 2000; omega
  | ⟨1, _⟩ => show win0_5.index _ (1 : Fin 2) * 256 ≤ (i 1).val ∧ (i 1).val < win0_5.index _ (1 : Fin 2) * 256 + 256; rw [e1]; omega

/-- THE OUTPUT ARRAY after the region is `layerArr` of the arrays the region finds. -/
theorem final (c : Dev nD) : (dat0 V c).arrAt 5 cfg0.N
    = layerArr (V c main_arg0) (V c main_v21) (V c main_v22) (V c main_v23) (V c main_v24) :=
  (dat0 V c).arrAt_eq_of_cover 5 _ (fun t _ => flushed_eq V c t) cover

end

end Cert.KernelIdeal.Layer0

end
-- ==== Proof.Layer1Body.lean ====
/-
  The arithmetic of the second layer's kernel body, read at one element.

  The body takes a block `x` of 2000 rows of hidden features (the first layer's output), the matching block `a` of their
  means over incoming edges,
  the two weight matrices already transposed (`w`, `v` : [256, 128]) and the bias as one row (`b` : [1, 128]), and
  stores  max(x·w + a·v + b, 0).  At the ideal instance the roundings to bf16 in front of the two matrix products are
  the identity and a matrix product into the zero accumulator is the plain sum over the contracted axis, so element
  (p, q) of the stored block is
      max((∑ₖ x[p,k]·w[k,q]) + (∑ₖ a[p,k]·v[k,q]) + b[0,q], 0).
-/
import proofs.«164540_j72129680769620_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer1

open Cert.KernelIdeal Cert.KernelIdeal.Gen Idealize.ShloMosaic Idealize.ShloMosaic.ValueIdx

/-- The dimension numbers of the body's two matrix products: [2000,256] × [256,128], contracting the 256. -/
abbrev D1 : DotDims S2000x256 S256x128 S2000x128 := dot_S2000x256_S256x128_S2000x128_1_0_0_1_n_n

theorem lhs_row (i : S2000x128.Idx) (r : D1.contr.Idx) : (D1.lhsIdx i r 0).val = (i 0).val := by
  unfold DotDims.lhsIdx
  rw [dif_neg (show ¬(0 : Fin S2000x256.rank) ∈ D1.lhsBatch by decide), dif_pos (show (0 : Fin S2000x256.rank) ∈ D1.lhsNonContracting by decide)]
  rfl
theorem lhs_contr (i : S2000x128.Idx) (r : D1.contr.Idx) : (D1.lhsIdx i r 1).val = (r ⟨0, by decide⟩).val :=
  D1.lhsIdx_val_of_single rfl i r
theorem rhs_contr (i : S2000x128.Idx) (r : D1.contr.Idx) : (D1.rhsIdx i r 0).val = (r ⟨0, by decide⟩).val :=
  D1.rhsIdx_val_of_single rfl i r
theorem rhs_col (i : S2000x128.Idx) (r : D1.contr.Idx) : (D1.rhsIdx i r 1).val = (i 1).val := by
  unfold DotDims.rhsIdx
  rw [dif_neg (show ¬(1 : Fin S256x128.rank) ∈ D1.rhsBatch by decide), dif_pos (show (1 : Fin S256x128.rank) ∈ D1.rhsNonContracting by decide)]
  rfl

/-- A matrix product of the body into the zero accumulator, at element (p, q): the sum over the contracted axis. -/
theorem matmul_apply (x : FVec Ideal S2000x256 .bf16) (w : FVec Ideal S256x128 .bf16) (p : Fin 2000) (q : Fin 128) :
    matmul D1 none x w (constant S2000x128 .f32 0x00000000#32) (ix2 p q) = ∑ k : Fin 256, x (ix2 p k) * w (ix2 k q) := by
  simp only [matmul]
  rw [Ideal.matmul_constant_zero_apply, ← Equiv.sum_comp (contrEquiv1 D1 256 rfl rfl).symm]
  refine Finset.sum_congr rfl fun k _ => ?_
  have hk := contrEquiv1_symm_val D1 256 rfl rfl k
  have el : D1.lhsIdx (ix2 p q) ((contrEquiv1 D1 256 rfl rfl).symm k) = ix2 p k := funext fun a => Fin.ext (by
    match a with
    | ⟨0, _⟩ => exact lhs_row _ _
    | ⟨1, _⟩ => exact (lhs_contr _ _).trans hk)
  have er : D1.rhsIdx (ix2 p q) ((contrEquiv1 D1 256 rfl rfl).symm k) = ix2 k q := funext fun a => Fin.ext (by
    match a with
    | ⟨0, _⟩ => exact (rhs_contr _ _).trans hk
    | ⟨1, _⟩ => exact rhs_col _ _)
  rw [el, er]

/-- The bias row broadcast down the 2000 rows, at element (p, q): the row's entry q. -/
theorem bias_apply (b : FVec Ideal S1x128 .f32) (p : Fin 2000) (q : Fin 128) :
    broadcastTo S2000x128 b broadcasts_S1x128_S2000x128 (ix2 p q) = b (ix2 (0 : Fin 1) q) :=
  broadcastTo_apply b broadcasts_S1x128_S2000x128 (ix2 p q) (ix2 (0 : Fin 1) q) (fun a => by
    match a with
    | ⟨0, _⟩ => show 0 = if (1 : Nat) = 1 then 0 else _; rw [if_pos rfl]
    | ⟨1, _⟩ => show q.val = if (128 : Nat) = 1 then 0 else q.val; rw [if_neg (by decide)])

/-- THE STORED BLOCK at element (p, q). -/
theorem pay_apply (x a : Vec Ideal S2000x256 .f32) (w v : Vec Ideal S256x128 .f32) (b : Vec Ideal S1x128 .f32)
    (p : Fin 2000) (q : Fin 128) :
    k1_pay1 (F := Ideal) x a w v b (ix2 p q)
      = max ((∑ k : Fin 256, x (ix2 p k) * w (ix2 k q)) + (∑ k : Fin 256, a (ix2 p k) * v (ix2 k q)) + b (ix2 (0 : Fin 1) q))
          (Ideal.ofBits .f32 0x00000000#32) := by
  unfold k1_pay1
  simp only [shapeCast_self]
  rw [maximumf_apply, addf_apply, addf_apply, matmul_apply, matmul_apply, bias_apply]
  rfl

end Cert.KernelIdeal.Layer1

end
-- ==== Proof.Layer1Blocks.lean ====
/-
  From the second layer's blocks to its whole output array.

  The layer's kernel runs over 25 grid points; point `t` reads rows 2000·t … 2000·t + 1999 of the hidden features and of
  their means over incoming edges, the two transposed weight matrices and the bias row whole, and writes rows
  2000·t … 2000·t + 1999 of the output. So what point `t` writes back is block `t` of ONE function of the arrays the
  region finds (`layerArr`), the 25 blocks cover the output, and the output array after the region is that function:
      out[r, q] = max((∑ₖ X[r,k]·W[k,q]) + (∑ₖ A[r,k]·V[k,q]) + B[0,q], 0).
  Everything is stated for ANY contents `V` of the TensorCore's buffers at the region's entry.
-/
import proofs.«164540_j72129680769620_1_alg».proof.Proof.Gen.KernelIdeal.Frame
import proofs.«164540_j72129680769620_1_alg».proof.Proof.Layer1Body
import proofs.«164540_j72129680769620_1_alg».proof.Proof.Idx

noncomputable section

namespace Cert.KernelIdeal.Layer1

open Cert.KernelIdeal Cert.KernelIdeal.Gen Idealize.ShloMosaic Idealize.ShloMosaic.TcCoe Idealize.SL.Sem Idealize.ShloMosaic.ValueIdx
open Idealize.ShloMosaic.Pipeline (Dat)
open Cert.Sage (row col)

/-- The layer as one function of whole arrays: features `X`, aggregated features `A`, transposed weights `W`, `V`,
    bias row `B`. -/
def layerArr (X A : S50000x256.Idx → EReal) (W V : S256x128.Idx → EReal) (B : S1x128.Idx → EReal) : S50000x128.Idx → EReal :=
  fun i => max ((∑ k : Fin 256, X (ix2 (row i) k) * W (ix2 k (col i))) + (∑ k : Fin 256, A (ix2 (row i) k) * V (ix2 k (col i)))
      + B (ix2 (0 : Fin 1) (col i))) (Ideal.ofBits .f32 0x00000000#32)

theorem hz : (![0, 0] : Fin 2 → Nat) = fun _ => 0 := funext fun a => by fin_cases a <;> rfl

/-- The printed index maps over the grid: the three row-blocked windows move with the point, the weights and the
    bias stay at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

section
variable (V : (c : Dev nD) → (b : Ref sig .tc) → Buf (Elt Ideal) ((c : Thread nD τ).loc b))

/-- Point `t`'s block of the hidden features is rows 2000·t … of the array. -/
theorem blk_x (c : Dev nD) (t : Fin cfg1.N) (y : S2000x256.Idx) (i : S50000x256.Idx)
    (h0 : (i 0).val = 2000 * t.val + (y 0).val) (h1 : (i 1).val = (y 1).val) :
    (iblk1 V c 0 t : Vec Ideal S2000x256 .f32) y = (V c main_v25 : S50000x256.Idx → EReal) i := by
  obtain ⟨⟨e0, e1⟩, -⟩ := idx_facts t
  unfold iblk1
  rw [View.read_apply]
  show V c main_v25 _ = V c main_v25 _
  refine congrArg _ (funext fun a => Fin.ext ?_)
  match a with
  | ⟨0, _⟩ => show win1_0.index t (0 : Fin 2) * 2000 + 1 * (y 0).val = (i 0).val; rw [e0, h0]; omega
  | ⟨1, _⟩ => show win1_0.index t (1 : Fin 2) * 256 + 1 * (y 1).val = (i 1).val; rw [e1, h1]; omega

/-- Point `t`'s block of the aggregated hidden features is the same rows of that array. -/
theorem blk_a (c : Dev nD) (t : Fin cfg1.N) (y : S2000x256.Idx) (i : S50000x256.Idx)
    (h0 : (i 0).val = 2000 * t.val + (y 0).val) (h1 : (i 1).val = (y 1).val) :
    (iblk1 V c 1 t : Vec Ideal S2000x256 .f32) y = (V c main_v43 : S50000x256.Idx → EReal) i := by
  obtain ⟨-, ⟨e0, e1⟩, -⟩ := idx_facts t
  unfold iblk1
  rw [View.read_apply]
  show V c main_v43 _ = V c main_v43 _
  refine congrArg _ (funext fun a => Fin.ext ?_)
  match a with
  | ⟨0, _⟩ => show win1_1.index t (0 : Fin 2) * 2000 + 1 * (y 0).val = (i 0).val; rw [e0, h0]; omega
  | ⟨1, _⟩ => show win1_1.index t (1 : Fin 2) * 256 + 1 * (y 1).val = (i 1).val; rw [e1, h1]; omega

/-- Every point's block of a weight matrix is the matrix. -/
theorem blk_w (c : Dev nD) (t : Fin cfg1.N) (y : S256x128.Idx) :
    (iblk1 V c 2 t : Vec Ideal S256x128 .f32) y = (V c main_v44 : S256x128.Idx → EReal) y := by
  obtain ⟨-, -, ⟨e0, e1⟩, -⟩ := idx_facts t
  unfold iblk1
  rw [View.read_apply]
  show V c main_v44 _ = V c main_v44 _
  refine congrArg _ (funext fun a => Fin.ext ?_)
  match a with
  | ⟨0, _⟩ => show win1_2.index t (0 : Fin 2) * 256 + 1 * (y 0).val = (y 0).val; rw [e0]; omega
  | ⟨1, _⟩ => show win1_2.index t (1 : Fin 2) * 128 + 1 * (y 1).val = (y 1).val; rw [e1]; omega
theorem blk_v (c : Dev nD) (t : Fin cfg1.N) (y : S256x128.Idx) :
    (iblk1 V c 3 t : Vec Ideal S256x128 .f32) y = (V c main_v45 : S256x128.Idx → EReal) y := by
  obtain ⟨-, -, -, ⟨e0, e1⟩, -⟩ := idx_facts t
  unfold iblk1
  rw [View.read_apply]
  show V c main_v45 _ = V c main_v45 _
  refine congrArg _ (funext fun a => Fin.ext ?_)
  match a with
  | ⟨0, _⟩ => show win1_3.index t (0 : Fin 2) * 256 + 1 * (y 0).val = (y 0).val; rw [e0]; omega
  | ⟨1, _⟩ => show win1_3.index t (1 : Fin 2) * 128 + 1 * (y 1).val = (y 1).val; rw [e1]; omega
/-- Every point's block of the bias row is the row. -/
theorem blk_b (c : Dev nD) (t : Fin cfg1.N) (y : S1x128.Idx) :
    (iblk1 V c 4 t : Vec Ideal S1x128 .f32) y = (V c main_v46 : S1x128.Idx → EReal) y := by
  obtain ⟨-, -, -, -, ⟨e0, e1⟩, -⟩ := idx_facts t
  unfold iblk1
  rw [View.read_apply]
  show V c main_v46 _ = V c main_v46 _
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- WHAT POINT `t` WRITES BACK is block `t` of `layerArr` of the arrays the region finds. -/
theorem flushed_eq (c : Dev nD) (t : Fin cfg1.N) :
    (dat1 V c).flushed 5 t = ((cfg1.win 5).blk t).view.read (Elt Ideal)
      (layerArr (V c main_v25) (V c main_v43) (V c main_v44) (V c main_v45) (V c main_v46)) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x128) hz, View.ld_unit_zero (S := S1x128) hz]
  obtain ⟨-, -, -, -, -, ⟨e0, e1⟩⟩ := idx_facts t
  funext j
  rw [View.read_apply]
  show k1_pay1 (F := Ideal) (iblk1 V c 0 t) (iblk1 V c 1 t) (iblk1 V c 2 t) (iblk1 V c 3 t) (iblk1 V c 4 t) j = layerArr _ _ _ _ _ (((cfg1.win 5).blk t).view.emb j)
  obtain ⟨p, q, rfl⟩ : ∃ (p : Fin 2000) (q : Fin 128), j = ix2 p q := ⟨j 0, j 1, eq_ix2 j⟩
  have hr : (((cfg1.win 5).blk t).view.emb (ix2 p q) 0).val = 2000 * t.val + p.val := by
    show win1_5.index t (0 : Fin 2) * 2000 + 1 * p.val = _; rw [e0]; omega
  have hc : (((cfg1.win 5).blk t).view.emb (ix2 p q) 1).val = q.val := by
    show win1_5.index t (1 : Fin 2) * 128 + 1 * q.val = _; rw [e1]; omega
  rw [pay_apply]
  unfold layerArr
  have hcol : col (((cfg1.win 5).blk t).view.emb (ix2 p q)) = q := Fin.ext hc
  rw [hcol]
  refine congrArg (fun z => max z _) ?_
  refine congrArg₂ (· + ·) (congrArg₂ (· + ·) ?_ ?_) ?_
  · exact Finset.sum_congr rfl fun k _ => congrArg₂ (· * ·) (blk_x V c t _ _ hr rfl) (blk_w V c t _)
  · exact Finset.sum_congr rfl fun k _ => congrArg₂ (· * ·) (blk_a V c t _ _ hr rfl) (blk_v V c t _)
  · exact blk_b V c t _

/-- An index of the output is in point `t`'s block iff its row is among the block's rows (and its column anywhere). -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v47).slice (win1_5.rect t)).set ↔ _
  rw [View.set_slice_whole, Rect.mem_set_unit]
  exact Iff.rfl

/-- Every index of the output is in the block of the point its row falls to. -/
theorem cover (i : S50000x128.Idx) : ∃ t : Fin cfg1.N, (cfg1.win 5).flush t = true ∧ i ∈ ((cfg1.win 5).blk t).view.set := by
  have hN : cfg1.N = 25 := N_1
  have hi0 : (i 0).val < 50000 := idx2_lt0 i
  have hi1 : (i 1).val < 128 := idx2_lt1 i
  refine ⟨⟨(i 0).val / 2000, by rw [hN]; omega⟩, flush1_5 _, ?_⟩
  rw [mem_blk]
  obtain ⟨-, -, -, -, -, ⟨e0, e1⟩⟩ := idx_facts ⟨(i 0).val / 2000, by rw [hN]; omega⟩
  intro a
  match a with
  | ⟨0, _⟩ => show win1_5.index _ (0 : Fin 2) * 2000 ≤ (i 0).val ∧ (i 0).val < win1_5.index _ (0 : Fin 2) * 2000 + 2000; rw [e0]; show (i 0).val / 2000 * 2000 ≤ _ ∧ _ < (i 0).val / 2000 * 2000 + 2000; omega
  | ⟨1, _⟩ => show win1_5.index _ (1 : Fin 2) * 128 ≤ (i 1).val ∧ (i 1).val < win1_5.index _ (1 : Fin 2) * 128 + 128; rw [e1]; omega

/-- THE OUTPUT ARRAY after the region is `layerArr` of the arrays the region finds. -/
theorem final (c : Dev nD) : (dat1 V c).arrAt 5 cfg1.N
    = layerArr (V c main_v25) (V c main_v43) (V c main_v44) (V c main_v45) (V c main_v46) :=
  (dat1 V c).arrAt_eq_of_cover 5 _ (fun t _ => flushed_eq V c t) cover

end

end Cert.KernelIdeal.Layer1

end
-- ==== Proof.Entry.lean ====
/-
  What the kernel's program holds in its buffers when each of its two regions is entered.

  Before the first region the host gathers, scatters and divides the node features into their mean over incoming edges,
  transposes the two weight matrices and reshapes the bias to one row; between the regions it does the same to the first
  region's output. Each buffer a region reads is read back here as a function of the program's arguments (and, for the
  second region, of the array the first region left): the mean is the reference's own (`mean1`, `mean2`: the same
  operations in the same order, so the two terms are one), the weights are transposed, the bias is reshaped.

  The host operations come in stretches (the operations before the clipping of the edge counts, the clipping, the
  operations after it); each stretch is read from ARBITRARY contents before it: a stretch's result is a small term over
  the named contents before it, and the stretches are then chained.
-/
import proofs.«164540_j72129680769620_1_alg».proof.Proof.Gen.KernelIdeal.Frame
import proofs.«164540_j72129680769620_1_alg».proof.Proof.Spec

noncomputable section

namespace Cert.KernelIdeal.Entry

open Cert.KernelIdeal Cert.KernelIdeal.Gen Idealize.ShloMosaic Idealize.ShloMosaic.TcCoe Idealize.SL.Sem Idealize.ShloMosaic.StableHlo
open Cert.ReferenceIdeal.Sage (src dst wrapped column degree mean1 mean2)

variable (m : (ℓ : Loc nD τ sig) → Buf (Elt Ideal) ℓ) (ρ : Dev nD → PrngReg)

/-! ## Before the first region: the operations up to the clipping -/

theorem a_src (c : Dev nD) : W1 m ρ c (Proc.devRef .tc main_v1) = src (m ((c : Thread nD τ).loc main_arg1)) := by
  show StableHlo.after hostOps0 (W0 m ρ c) (Proc.devRef .tc main_v1) = _
  after_results_simp
  try rfl
theorem a_dst (c : Dev nD) : W1 m ρ c (Proc.devRef .tc main_v3) = dst (m ((c : Thread nD τ).loc main_arg1)) := by
  show StableHlo.after hostOps0 (W0 m ρ c) (Proc.devRef .tc main_v3) = _
  after_results_simp
  try rfl
/-- The sum of the source rows' features over each node's incoming edges. -/
theorem a_sum (c : Dev nD) : W1 m ρ c (Proc.devRef .tc main_v13)
    = Host.scatterAdd (F := Ideal) Cert.ReferenceIdeal.scatter_S50000x128_S800000x1_S800000x128_1_0_0_1
        (broadcastInDim Cert.ReferenceIdeal.S50000x128 ![] Cert.ReferenceIdeal.Gen.bcast_S_S50000x128 (constant (F := Ideal) Cert.ReferenceIdeal.S_ .f32 0x00000000#32))
        (column (dst (m ((c : Thread nD τ).loc main_arg1))))
        (Host.gather Cert.ReferenceIdeal.gather_S50000x128_S800000x1_S800000x128_1_0_n_n_0_1_1128 (m ((c : Thread nD τ).loc main_arg0)) (wrapped (src (m ((c : Thread nD τ).loc main_arg1))))) := by
  show StableHlo.after hostOps0 (W0 m ρ c) (Proc.devRef .tc main_v13) = _
  after_results_simp
  unfold column wrapped src dst
  rfl
/-- The number of each node's incoming edges. -/
theorem a_cnt (c : Dev nD) : W1 m ρ c (Proc.devRef .tc main_v17)
    = Host.scatterAdd (F := Ideal) Cert.ReferenceIdeal.scatter_S50000_S800000x1_S800000_n_0_0_1
        (broadcastInDim Cert.ReferenceIdeal.S50000 ![] Cert.ReferenceIdeal.Gen.bcast_S_S50000 (constant (F := Ideal) Cert.ReferenceIdeal.S_ .f32 0x00000000#32))
        (column (dst (m ((c : Thread nD τ).loc main_arg1))))
        (broadcastInDim Cert.ReferenceIdeal.S800000 ![] Cert.ReferenceIdeal.Gen.bcast_S_S800000 (constant (F := Ideal) Cert.ReferenceIdeal.S_ .f32 0x3F800000#32)) := by
  show StableHlo.after hostOps0 (W0 m ρ c) (Proc.devRef .tc main_v17) = _
  after_results_simp
  unfold column dst
  rfl
theorem a_one (c : Dev nD) : W1 m ρ c (Proc.devRef .tc main_cst_3) = constant (F := Ideal) S_ .f32 0x3F800000#32 := by
  show StableHlo.after hostOps0 (W0 m ρ c) (Proc.devRef .tc main_cst_3) = _
  after_results_simp
  try rfl
theorem a_x (c : Dev nD) : W1 m ρ c (Proc.devRef .tc main_arg0) = m ((c : Thread nD τ).loc main_arg0) := by
  show StableHlo.after hostOps0 (W0 m ρ c) (Proc.devRef .tc main_arg0) = _
  after_results_simp
  try rfl
theorem a_w (c : Dev nD) : W1 m ρ c (Proc.devRef .tc main_arg2) = m ((c : Thread nD τ).loc main_arg2) := by
  show StableHlo.after hostOps0 (W0 m ρ c) (Proc.devRef .tc main_arg2) = _
  after_results_simp
  try rfl
theorem a_v (c : Dev nD) : W1 m ρ c (Proc.devRef .tc main_arg3) = m ((c : Thread nD τ).loc main_arg3) := by
  show StableHlo.after hostOps0 (W0 m ρ c) (Proc.devRef .tc main_arg3) = _
  after_results_simp
  try rfl
theorem a_b (c : Dev nD) : W1 m ρ c (Proc.devRef .tc main_arg4) = m ((c : Thread nD τ).loc main_arg4) := by
  show StableHlo.after hostOps0 (W0 m ρ c) (Proc.devRef .tc main_arg4) = _
  after_results_simp
  try rfl
theorem a_w2 (c : Dev nD) : W1 m ρ c (Proc.devRef .tc main_arg5) = m ((c : Thread nD τ).loc main_arg5) := by
  show StableHlo.after hostOps0 (W0 m ρ c) (Proc.devRef .tc main_arg5) = _
  after_results_simp
  try rfl
theorem a_v2 (c : Dev nD) : W1 m ρ c (Proc.devRef .tc main_arg6) = m ((c : Thread nD τ).loc main_arg6) := by
  show StableHlo.after hostOps0 (W0 m ρ c) (Proc.devRef .tc main_arg6) = _
  after_results_simp
  try rfl
theorem a_b2 (c : Dev nD) : W1 m ρ c (Proc.devRef .tc main_arg7) = m ((c : Thread nD τ).loc main_arg7) := by
  show StableHlo.after hostOps0 (W0 m ρ c) (Proc.devRef .tc main_arg7) = _
  after_results_simp
  try rfl

/-! ## The clipping of the edge counts, from any contents before it -/

/-- The clipped count: the larger of one and the count. -/
theorem b_deg (c : Dev nD) : W2 m ρ c (Proc.devRef .tc main_v18)
    = @maximumf Ideal _ S50000 .f32 (@broadcastInDim S_ (Ideal .f32) S50000 ![] bcast_S_S50000 (@id (S_.Idx → Ideal .f32) (W1 m ρ c (Proc.devRef .tc main_cst_3)))) (W1 m ρ c (Proc.devRef .tc main_v17)) := by
  show StableHlo.after hostOps0_1 (W1 m ρ c) (Proc.devRef .tc main_v18) = _
  generalize W1 m ρ c = U
  after_results_simp
  try rfl
theorem b_keep (c : Dev nD) (r : Ref sig .tc) (h1 : r ≠ main_call0_v0) (h2 : r ≠ main_call0_v1) (h3 : r ≠ main_v18) :
    W2 m ρ c (Proc.devRef .tc r) = W1 m ρ c (Proc.devRef .tc r) := by
  show StableHlo.after hostOps0_1 (W1 m ρ c) (Proc.devRef .tc r) = _
  generalize W1 m ρ c = U
  simp only [after_cons, after_nil]
  rw [TRef.binary, binary_result_ne _ _ _ _ _ _ _ _ h3, TRef.unary, unary_result_ne _ _ _ _ _ _ h2, TRef.unary, unary_result_ne _ _ _ _ _ _ h1]

/-! ## The operations after the clipping, from any contents before them -/

theorem c_agg (c : Dev nD) : W3 m ρ c (Proc.devRef .tc main_v21)
    = @Host.divf Ideal _ S50000x128 .f32 (W2 m ρ c (Proc.devRef .tc main_v13))
        (@broadcastInDim S50000x1 (Ideal .f32) S50000x128 ![0, 1] bcast_S50000x1_S50000x128_0_1 (@broadcastInDim S50000 (Ideal .f32) S50000x1 ![0] bcast_S50000_S50000x1_0 (W2 m ρ c (Proc.devRef .tc main_v18)))) := by
  show StableHlo.after hostOps0_2 (W2 m ρ c) (Proc.devRef .tc main_v21) = _
  generalize W2 m ρ c = U
  after_results_simp
  try rfl
theorem c_w (c : Dev nD) : W3 m ρ c (Proc.devRef .tc main_v22)
    = transpose S128x256 [1, 0] (W2 m ρ c (Proc.devRef .tc main_arg2)) transposes_S256x128_S128x256_1_0 := by
  show StableHlo.after hostOps0_2 (W2 m ρ c) (Proc.devRef .tc main_v22) = _
  generalize W2 m ρ c = U
  after_results_simp
  try rfl
theorem c_v (c : Dev nD) : W3 m ρ c (Proc.devRef .tc main_v23)
    = transpose S128x256 [1, 0] (W2 m ρ c (Proc.devRef .tc main_arg3)) transposes_S256x128_S128x256_1_0 := by
  show StableHlo.after hostOps0_2 (W2 m ρ c) (Proc.devRef .tc main_v23) = _
  generalize W2 m ρ c = U
  after_results_simp
  try rfl
theorem c_b (c : Dev nD) : W3 m ρ c (Proc.devRef .tc main_v24)
    = shapeCast S1x256 (W2 m ρ c (Proc.devRef .tc main_arg4)) shapeCasts_S256_S1x256 := by
  show StableHlo.after hostOps0_2 (W2 m ρ c) (Proc.devRef .tc main_v24) = _
  generalize W2 m ρ c = U
  after_results_simp
  try rfl
theorem c_keep (c : Dev nD) (r : Ref sig .tc) (h1 : r ≠ main_v19) (h2 : r ≠ main_v20) (h3 : r ≠ main_v21) (h4 : r ≠ main_v22) (h5 : r ≠ main_v23) (h6 : r ≠ main_v24) :
    W3 m ρ c (Proc.devRef .tc r) = W2 m ρ c (Proc.devRef .tc r) := by
  show StableHlo.after hostOps0_2 (W2 m ρ c) (Proc.devRef .tc r) = _
  generalize W2 m ρ c = U
  simp only [after_cons, after_nil]
  rw [reshape_result_ne _ _ _ _ _ _ _ h6, unary_result_ne _ _ _ _ _ _ h5, unary_result_ne _ _ _ _ _ _ h4, binary_result_ne _ _ _ _ _ _ _ _ h3,
    unary_result_ne _ _ _ _ _ _ h2, unary_result_ne _ _ _ _ _ _ h1]

/-! ## At the first region's entry -/

/-- The node features are the argument. -/
theorem first_x (c : Dev nD) : V3 m ρ c main_arg0 = m ((c : Thread nD τ).loc main_arg0) :=
  (c_keep m ρ c main_arg0 (by decide) (by decide) (by decide) (by decide) (by decide) (by decide)).trans
    ((b_keep m ρ c main_arg0 (by decide) (by decide) (by decide)).trans (a_x m ρ c))

/-- The aggregated features are the mean of the node features over incoming edges. -/
theorem first_agg (c : Dev nD) : V3 m ρ c main_v21
    = mean1 (F := Ideal) (m ((c : Thread nD τ).loc main_arg0)) (src (m ((c : Thread nD τ).loc main_arg1))) (dst (m ((c : Thread nD τ).loc main_arg1))) := by
  show W3 m ρ c (Proc.devRef .tc main_v21) = _
  rw [c_agg, b_deg, b_keep m ρ c main_v13 (by decide) (by decide) (by decide), a_sum, a_cnt, a_one]
  rfl

/-- The self weights, transposed. -/
theorem first_w (c : Dev nD) : V3 m ρ c main_v22
    = transpose S128x256 [1, 0] (m ((c : Thread nD τ).loc main_arg2)) transposes_S256x128_S128x256_1_0 := by
  show W3 m ρ c (Proc.devRef .tc main_v22) = _
  rw [c_w, b_keep m ρ c main_arg2 (by decide) (by decide) (by decide), a_w]

/-- The neighbour weights, transposed. -/
theorem first_v (c : Dev nD) : V3 m ρ c main_v23
    = transpose S128x256 [1, 0] (m ((c : Thread nD τ).loc main_arg3)) transposes_S256x128_S128x256_1_0 := by
  show W3 m ρ c (Proc.devRef .tc main_v23) = _
  rw [c_v, b_keep m ρ c main_arg3 (by decide) (by decide) (by decide), a_v]

/-- The bias as one row. -/
theorem first_b (c : Dev nD) : V3 m ρ c main_v24
    = shapeCast S1x256 (m ((c : Thread nD τ).loc main_arg4)) shapeCasts_S256_S1x256 := by
  show W3 m ρ c (Proc.devRef .tc main_v24) = _
  rw [c_b, b_keep m ρ c main_arg4 (by decide) (by decide) (by decide), a_b]

/-! ## What the first region leaves -/

/-- The hidden features: what the first region's write-backs left in its output array. -/
theorem g_h (c : Dev nD) : W4 m ρ c (Proc.devRef .tc main_v25) = (dat0 (V3 m ρ) c).arrAt 5 cfg0.N := W4_arr m ρ c 5
/-- The edges' sources, computed before the first region, are still there after it. -/
theorem g_src (c : Dev nD) : W4 m ρ c (Proc.devRef .tc main_v1) = src (m ((c : Thread nD τ).loc main_arg1)) :=
  (W4_of_ne m ρ c main_v1 (by decide)).trans ((c_keep m ρ c main_v1 (by decide) (by decide) (by decide) (by decide) (by decide) (by decide)).trans
    ((b_keep m ρ c main_v1 (by decide) (by decide) (by decide)).trans (a_src m ρ c)))
/-- So are the destinations. -/
theorem g_dst (c : Dev nD) : W4 m ρ c (Proc.devRef .tc main_v3) = dst (m ((c : Thread nD τ).loc main_arg1)) :=
  (W4_of_ne m ρ c main_v3 (by decide)).trans ((c_keep m ρ c main_v3 (by decide) (by decide) (by decide) (by decide) (by decide) (by decide)).trans
    ((b_keep m ρ c main_v3 (by decide) (by decide) (by decide)).trans (a_dst m ρ c)))
/-- The second layer's parameters are untouched. -/
theorem g_w (c : Dev nD) : W4 m ρ c (Proc.devRef .tc main_arg5) = m ((c : Thread nD τ).loc main_arg5) :=
  (W4_of_ne m ρ c main_arg5 (by decide)).trans ((c_keep m ρ c main_arg5 (by decide) (by decide) (by decide) (by decide) (by decide) (by decide)).trans
    ((b_keep m ρ c main_arg5 (by decide) (by decide) (by decide)).trans (a_w2 m ρ c)))
theorem g_v (c : Dev nD) : W4 m ρ c (Proc.devRef .tc main_arg6) = m ((c : Thread nD τ).loc main_arg6) :=
  (W4_of_ne m ρ c main_arg6 (by decide)).trans ((c_keep m ρ c main_arg6 (by decide) (by decide) (by decide) (by decide) (by decide) (by decide)).trans
    ((b_keep m ρ c main_arg6 (by decide) (by decide) (by decide)).trans (a_v2 m ρ c)))
theorem g_b (c : Dev nD) : W4 m ρ c (Proc.devRef .tc main_arg7) = m ((c : Thread nD τ).loc main_arg7) :=
  (W4_of_ne m ρ c main_arg7 (by decide)).trans ((c_keep m ρ c main_arg7 (by decide) (by decide) (by decide) (by decide) (by decide) (by decide)).trans
    ((b_keep m ρ c main_arg7 (by decide) (by decide) (by decide)).trans (a_b2 m ρ c)))

/-! ## Between the regions: the operations up to the clipping, from any contents before them -/

/-- The sum of the source rows' hidden features over each node's incoming edges. -/
theorem d_sum (c : Dev nD) : W5 m ρ c (Proc.devRef .tc main_v35)
    = Host.scatterAdd (F := Ideal) Cert.ReferenceIdeal.scatter_S50000x256_S800000x1_S800000x256_1_0_0_1
        (broadcastInDim Cert.ReferenceIdeal.S50000x256 ![] Cert.ReferenceIdeal.Gen.bcast_S_S50000x256 (constant (F := Ideal) Cert.ReferenceIdeal.S_ .f32 0x00000000#32))
        (column (F := Ideal) (W4 m ρ c (Proc.devRef .tc main_v3)))
        (Host.gather (α := Ideal .f32) Cert.ReferenceIdeal.gather_S50000x256_S800000x1_S800000x256_1_0_n_n_0_1_1256 (W4 m ρ c (Proc.devRef .tc main_v25)) (wrapped (F := Ideal) (W4 m ρ c (Proc.devRef .tc main_v1)))) := by
  show StableHlo.after hostOps1 (W4 m ρ c) (Proc.devRef .tc main_v35) = _
  generalize W4 m ρ c = U
  after_results_simp
  unfold column wrapped
  rfl
/-- The number of each node's incoming edges, counted again. -/
theorem d_cnt (c : Dev nD) : W5 m ρ c (Proc.devRef .tc main_v39)
    = Host.scatterAdd (F := Ideal) Cert.ReferenceIdeal.scatter_S50000_S800000x1_S800000_n_0_0_1
        (broadcastInDim Cert.ReferenceIdeal.S50000 ![] Cert.ReferenceIdeal.Gen.bcast_S_S50000 (constant (F := Ideal) Cert.ReferenceIdeal.S_ .f32 0x00000000#32))
        (column (F := Ideal) (W4 m ρ c (Proc.devRef .tc main_v3)))
        (broadcastInDim Cert.ReferenceIdeal.S800000 ![] Cert.ReferenceIdeal.Gen.bcast_S_S800000 (constant (F := Ideal) Cert.ReferenceIdeal.S_ .f32 0x3F800000#32)) := by
  show StableHlo.after hostOps1 (W4 m ρ c) (Proc.devRef .tc main_v39) = _
  generalize W4 m ρ c = U
  after_results_simp
  unfold column
  rfl
theorem d_one (c : Dev nD) : W5 m ρ c (Proc.devRef .tc main_cst_9) = constant (F := Ideal) S_ .f32 0x3F800000#32 := by
  show StableHlo.after hostOps1 (W4 m ρ c) (Proc.devRef .tc main_cst_9) = _
  generalize W4 m ρ c = U
  after_results_simp
  try rfl
theorem d_h (c : Dev nD) : W5 m ρ c (Proc.devRef .tc main_v25) = W4 m ρ c (Proc.devRef .tc main_v25) := by
  show StableHlo.after hostOps1 (W4 m ρ c) (Proc.devRef .tc main_v25) = _
  generalize W4 m ρ c = U
  after_results_simp
  try rfl
theorem d_w (c : Dev nD) : W5 m ρ c (Proc.devRef .tc main_arg5) = W4 m ρ c (Proc.devRef .tc main_arg5) := by
  show StableHlo.after hostOps1 (W4 m ρ c) (Proc.devRef .tc main_arg5) = _
  generalize W4 m ρ c = U
  after_results_simp
  try rfl
theorem d_v (c : Dev nD) : W5 m ρ c (Proc.devRef .tc main_arg6) = W4 m ρ c (Proc.devRef .tc main_arg6) := by
  show StableHlo.after hostOps1 (W4 m ρ c) (Proc.devRef .tc main_arg6) = _
  generalize W4 m ρ c = U
  after_results_simp
  try rfl
theorem d_b (c : Dev nD) : W5 m ρ c (Proc.devRef .tc main_arg7) = W4 m ρ c (Proc.devRef .tc main_arg7) := by
  show StableHlo.after hostOps1 (W4 m ρ c) (Proc.devRef .tc main_arg7) = _
  generalize W4 m ρ c = U
  after_results_simp
  try rfl

/-! ## The second clipping of the edge counts -/

theorem e_deg (c : Dev nD) : W6 m ρ c (Proc.devRef .tc main_v40)
    = @maximumf Ideal _ S50000 .f32 (@broadcastInDim S_ (Ideal .f32) S50000 ![] bcast_S_S50000 (@id (S_.Idx → Ideal .f32) (W5 m ρ c (Proc.devRef .tc main_cst_9)))) (W5 m ρ c (Proc.devRef .tc main_v39)) := by
  show StableHlo.after hostOps1_1 (W5 m ρ c) (Proc.devRef .tc main_v40) = _
  generalize W5 m ρ c = U
  after_results_simp
  try rfl
theorem e_keep (c : Dev nD) (r : Ref sig .tc) (h1 : r ≠ main_call1_v0) (h2 : r ≠ main_call1_v1) (h3 : r ≠ main_v40) :
    W6 m ρ c (Proc.devRef .tc r) = W5 m ρ c (Proc.devRef .tc r) := by
  show StableHlo.after hostOps1_1 (W5 m ρ c) (Proc.devRef .tc r) = _
  generalize W5 m ρ c = U
  simp only [after_cons, after_nil]
  rw [TRef.binary, binary_result_ne _ _ _ _ _ _ _ _ h3, TRef.unary, unary_result_ne _ _ _ _ _ _ h2, TRef.unary, unary_result_ne _ _ _ _ _ _ h1]

/-! ## The operations after the second clipping -/

theorem f_agg (c : Dev nD) : W7 m ρ c (Proc.devRef .tc main_v43)
    = @Host.divf Ideal _ S50000x256 .f32 (W6 m ρ c (Proc.devRef .tc main_v35))
        (@broadcastInDim S50000x1 (Ideal .f32) S50000x256 ![0, 1] bcast_S50000x1_S50000x256_0_1 (@broadcastInDim S50000 (Ideal .f32) S50000x1 ![0] bcast_S50000_S50000x1_0 (W6 m ρ c (Proc.devRef .tc main_v40)))) := by
  show StableHlo.after hostOps1_2 (W6 m ρ c) (Proc.devRef .tc main_v43) = _
  generalize W6 m ρ c = U
  after_results_simp
  try rfl
theorem f_w (c : Dev nD) : W7 m ρ c (Proc.devRef .tc main_v44)
    = transpose S256x128 [1, 0] (W6 m ρ c (Proc.devRef .tc main_arg5)) transposes_S128x256_S256x128_1_0 := by
  show StableHlo.after hostOps1_2 (W6 m ρ c) (Proc.devRef .tc main_v44) = _
  generalize W6 m ρ c = U
  after_results_simp
  try rfl
theorem f_v (c : Dev nD) : W7 m ρ c (Proc.devRef .tc main_v45)
    = transpose S256x128 [1, 0] (W6 m ρ c (Proc.devRef .tc main_arg6)) transposes_S128x256_S256x128_1_0 := by
  show StableHlo.after hostOps1_2 (W6 m ρ c) (Proc.devRef .tc main_v45) = _
  generalize W6 m ρ c = U
  after_results_simp
  try rfl
theorem f_b (c : Dev nD) : W7 m ρ c (Proc.devRef .tc main_v46)
    = shapeCast S1x128 (W6 m ρ c (Proc.devRef .tc main_arg7)) shapeCasts_S128_S1x128 := by
  show StableHlo.after hostOps1_2 (W6 m ρ c) (Proc.devRef .tc main_v46) = _
  generalize W6 m ρ c = U
  after_results_simp
  try rfl
theorem f_h (c : Dev nD) : W7 m ρ c (Proc.devRef .tc main_v25) = W6 m ρ c (Proc.devRef .tc main_v25) := by
  show StableHlo.after hostOps1_2 (W6 m ρ c) (Proc.devRef .tc main_v25) = _
  generalize W6 m ρ c = U
  after_results_simp
  try rfl

/-! ## At the second region's entry -/

/-- The hidden features are what the first region's write-backs left. -/
theorem second_x (c : Dev nD) : V7 m ρ c main_v25 = (dat0 (V3 m ρ) c).arrAt 5 cfg0.N := by
  show W7 m ρ c (Proc.devRef .tc main_v25) = _
  rw [f_h, e_keep m ρ c main_v25 (by decide) (by decide) (by decide), d_h, g_h]

/-- The aggregated hidden features are their mean over incoming edges. -/
theorem second_agg (c : Dev nD) : V7 m ρ c main_v43
    = mean2 (F := Ideal) ((dat0 (V3 m ρ) c).arrAt 5 cfg0.N) (src (m ((c : Thread nD τ).loc main_arg1))) (dst (m ((c : Thread nD τ).loc main_arg1))) := by
  show W7 m ρ c (Proc.devRef .tc main_v43) = _
  rw [f_agg, e_deg, e_keep m ρ c main_v35 (by decide) (by decide) (by decide), d_sum, d_cnt, d_one, g_src, g_dst, g_h]
  rfl

/-- The self weights, transposed. -/
theorem second_w (c : Dev nD) : V7 m ρ c main_v44
    = transpose S256x128 [1, 0] (m ((c : Thread nD τ).loc main_arg5)) transposes_S128x256_S256x128_1_0 := by
  show W7 m ρ c (Proc.devRef .tc main_v44) = _
  rw [f_w, e_keep m ρ c main_arg5 (by decide) (by decide) (by decide), d_w, g_w]

/-- The neighbour weights, transposed. -/
theorem second_v (c : Dev nD) : V7 m ρ c main_v45
    = transpose S256x128 [1, 0] (m ((c : Thread nD τ).loc main_arg6)) transposes_S128x256_S256x128_1_0 := by
  show W7 m ρ c (Proc.devRef .tc main_v45) = _
  rw [f_v, e_keep m ρ c main_arg6 (by decide) (by decide) (by decide), d_v, g_v]

/-- The bias as one row. -/
theorem second_b (c : Dev nD) : V7 m ρ c main_v46
    = shapeCast S1x128 (m ((c : Thread nD τ).loc main_arg7)) shapeCasts_S128_S1x128 := by
  show W7 m ρ c (Proc.devRef .tc main_v46) = _
  rw [f_b, e_keep m ρ c main_arg7 (by decide) (by decide) (by decide), d_b, g_b]

end Cert.KernelIdeal.Entry

end
-- ==== Proof.Net.lean ====
/-
  The kernel's program computes the reference network.

  A region's output array is `layerArr` of the arrays it finds (the blocks-to-array modules); the arrays it finds are the
  layer's input, the input's mean over incoming edges, the two weight matrices TRANSPOSED and the bias as a row (the
  entry module). Reading a transposed matrix at (k, q) is reading the matrix at (q, k), and the bias row at (0, q) is
  the bias at q, so `layerArr` of those is the reference's dense layer of the matrices as given — the same two sums over
  the contracted axis, term for term, the same bias entry and the same comparison with zero. Chaining the two layers gives the
  reference's composition.
-/
import proofs.«164540_j72129680769620_1_alg».proof.Proof.Layer0Blocks
import proofs.«164540_j72129680769620_1_alg».proof.Proof.Layer1Blocks
import proofs.«164540_j72129680769620_1_alg».proof.Proof.Entry

noncomputable section

namespace Cert.KernelIdeal.Net

open Cert.KernelIdeal Cert.KernelIdeal.Gen Idealize.ShloMosaic Idealize.ShloMosaic.TcCoe Idealize.SL.Sem Idealize.ShloMosaic.ValueIdx
open Cert.Sage (row col)
open Cert.ReferenceIdeal.Sage (src dst mean1 mean2 dense1 dense2 layer1 layer2 dense1_apply dense2_apply)

/-- The first layer: of transposed weights and a bias row, the kernel's whole-array function is the reference's dense layer. -/
theorem dense1_eq (X A : FVec Ideal S50000x128 .f32) (W W' : FVec Ideal S256x128 .f32) (b : FVec Ideal S256 .f32) :
    Layer0.layerArr X A (transpose S128x256 [1, 0] W transposes_S256x128_S128x256_1_0) (transpose S128x256 [1, 0] W' transposes_S256x128_S128x256_1_0)
        (shapeCast S1x256 b shapeCasts_S256_S1x256)
      = dense1 (F := Ideal) X A W W' b := by
  funext i
  rw [dense1_apply]
  unfold Layer0.layerArr
  have tw : ∀ (M : FVec Ideal S256x128 .f32) (k : Fin 128) (q : Fin 256),
      transpose S128x256 [1, 0] M transposes_S256x128_S128x256_1_0 (ix2 k q) = M (ix2 q k) := fun M k q =>
    transpose_apply [1, 0] M transposes_S256x128_S128x256_1_0 (ix2 k q) (ix2 q k) (fun a => by
      match a with
      | ⟨0, _⟩ => rfl
      | ⟨1, _⟩ => rfl)
  have tb : ∀ q : Fin 256, shapeCast S1x256 b shapeCasts_S256_S1x256 (ix2 (0 : Fin 1) q) = b (ix1 q) := fun q =>
    shapeCast_apply b shapeCasts_S256_S1x256 (ix2 (0 : Fin 1) q) (ix1 q) (by
      rewrite [Shape.rowMajor_val_one, Shape.rowMajor_val_two]; show q.val = 0 * 256 + q.val; omega)
  simp only [tw, tb]

/-- The second layer likewise. -/
theorem dense2_eq (H A : FVec Ideal S50000x256 .f32) (W W' : FVec Ideal S128x256 .f32) (b : FVec Ideal S128 .f32) :
    Layer1.layerArr H A (transpose S256x128 [1, 0] W transposes_S128x256_S256x128_1_0) (transpose S256x128 [1, 0] W' transposes_S128x256_S256x128_1_0)
        (shapeCast S1x128 b shapeCasts_S128_S1x128)
      = dense2 (F := Ideal) H A W W' b := by
  funext i
  rw [dense2_apply]
  unfold Layer1.layerArr
  have tw : ∀ (M : FVec Ideal S128x256 .f32) (k : Fin 256) (q : Fin 128),
      transpose S256x128 [1, 0] M transposes_S128x256_S256x128_1_0 (ix2 k q) = M (ix2 q k) := fun M k q =>
    transpose_apply [1, 0] M transposes_S128x256_S256x128_1_0 (ix2 k q) (ix2 q k) (fun a => by
      match a with
      | ⟨0, _⟩ => rfl
      | ⟨1, _⟩ => rfl)
  have tb : ∀ q : Fin 128, shapeCast S1x128 b shapeCasts_S128_S1x128 (ix2 (0 : Fin 1) q) = b (ix1 q) := fun q =>
    shapeCast_apply b shapeCasts_S128_S1x128 (ix2 (0 : Fin 1) q) (ix1 q) (by
      rewrite [Shape.rowMajor_val_one, Shape.rowMajor_val_two]; show q.val = 0 * 128 + q.val; omega)
  simp only [tw, tb]

variable (m : (ℓ : Loc nD τ sig) → Buf (Elt Ideal) ℓ) (ρ : Dev nD → PrngReg)

/-- What the first region leaves in its output array: the reference's first layer of the arguments. -/
theorem hidden (c : Dev nD) : (dat0 (V3 m ρ) c).arrAt 5 cfg0.N
    = layer1 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  rw [Layer0.final (V3 m ρ) c, Entry.first_x, Entry.first_agg, Entry.first_w, Entry.first_v, Entry.first_b]
  exact dense1_eq _ _ _ _ _

/-- THE RESULT ARRAY after the program: the reference's second layer of its first layer of the arguments. -/
theorem result (c : Dev nD) : (dat1 (V7 m ρ) c).arrAt 5 cfg1.N
    = layer2 (F := Ideal) (layer1 (F := Ideal) (m ((c : Thread nD τ).loc main_arg0)) (m ((c : Thread nD τ).loc main_arg1)) (m ((c : Thread nD τ).loc main_arg2))
          (m ((c : Thread nD τ).loc main_arg3)) (m ((c : Thread nD τ).loc main_arg4)))
        (m ((c : Thread nD τ).loc main_arg1)) (m ((c : Thread nD τ).loc main_arg5)) (m ((c : Thread nD τ).loc main_arg6)) (m ((c : Thread nD τ).loc main_arg7)) := by
  rw [Layer1.final (V7 m ρ) c, Entry.second_x, Entry.second_agg, Entry.second_w, Entry.second_v, Entry.second_b, hidden m ρ c]
  exact dense2_eq _ _ _ _ _

end Cert.KernelIdeal.Net

end
-- ==== Proof.lean ====
/-
  A two-layer graph network, each layer relu(x · W_selfᵀ + mean(x) · W_neighᵀ + b) with mean(x) the mean of x over a
  node's incoming edges, computed two ways: by a program whose dense part of each layer is a kernel over blocks of 2000
  nodes (the mean, a gather and two scatter-adds, stays on the host), and by the reference on the host alone.

  At the ideal instance the kernel's roundings to bf16 are the identity and its matrix products into a zero accumulator
  are plain sums, so a layer's kernel writes, block by block, exactly the reference's dense layer of the transposed-back
  weights; the mean is the same operations in the same order in both programs and is carried as one function. Hence the
  two results are one function of the arguments, and equal on arguments that agree. No law of arithmetic beyond reading
  both sides at an element is used, so the finiteness of the inputs is never opened.

  The three frames: the kernel's two are the generated frame certificates; the reference's is its generated run with the
  result dropped. The idealization rewrote nothing, so its statement is `True`.
-/
import proofs.«164540_j72129680769620_1_alg».proof.Defs
import proofs.«164540_j72129680769620_1_alg».proof.Proof.Gen.Kernel
import proofs.«164540_j72129680769620_1_alg».proof.Proof.Gen.Kernel.Skeleton
import proofs.«164540_j72129680769620_1_alg».proof.Proof.Gen.Kernel.Launch
import proofs.«164540_j72129680769620_1_alg».proof.Proof.Gen.Kernel.Points
import proofs.«164540_j72129680769620_1_alg».proof.Proof.Gen.Kernel.Frame
import proofs.«164540_j72129680769620_1_alg».proof.Proof.Gen.KernelIdeal
import proofs.«164540_j72129680769620_1_alg».proof.Proof.Gen.KernelIdeal.Skeleton
import proofs.«164540_j72129680769620_1_alg».proof.Proof.Gen.KernelIdeal.Launch
import proofs.«164540_j72129680769620_1_alg».proof.Proof.Gen.KernelIdeal.Points
import proofs.«164540_j72129680769620_1_alg».proof.Proof.Gen.KernelIdeal.Frame
import proofs.«164540_j72129680769620_1_alg».proof.Proof.Gen.ReferenceIdeal
import proofs.«164540_j72129680769620_1_alg».proof.Proof.Gen.Pre_finite_inputs
import proofs.«164540_j72129680769620_1_alg».proof.Proof.Gen.ReferenceIdeal.Run
import proofs.«164540_j72129680769620_1_alg».proof.Proof.Gen.ReferenceIdeal.Read
import proofs.«164540_j72129680769620_1_alg».proof.Proof.Spec
import proofs.«164540_j72129680769620_1_alg».proof.Proof.Whole
import proofs.«164540_j72129680769620_1_alg».proof.Proof.Net
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the second layer of the first layer of the arguments: the kernel's
    program by its run and the value of its result array, the reference by its run and the reading of its term; on
    memories that agree on the arguments the two are one array. -/
theorem algebraic : Cert.algebraic_KernelIdeal_ReferenceIdeal := by
  intro m ρ m' ρ' _ hagree
  refine ⟨fun c => _, (θ_run Cert.KernelIdeal.defs _ _).mono (fun r h c => ⟨(h c).1.trans (Cert.KernelIdeal.Net.result m ρ c), (h c).2⟩)
    (Cert.KernelIdeal.Whole.run (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Sage.result_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
